-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x80x8x8 : Shape := ⟨4, ![16384, 80, 8, 8]⟩
abbrev S5120x1858 : Shape := ⟨2, ![5120, 1858]⟩
abbrev S_ : Shape := ⟨0, ![]⟩

class Facts : Prop where
  bcast_S_S16384x80x8x8 : S_.BroadcastsInDim S16384x80x8x8 (![] : Fin 0 → Fin S16384x80x8x8.rank)
  reducesTo_S16384x80x8x8_S_d0_1_2_3 : S16384x80x8x8.ReducesTo [0, 1, 2, 3] S_
  h_S_ : 0 < S_.numel
  bcast_S_S5120x1858 : S_.BroadcastsInDim S5120x1858 (![] : Fin 0 → Fin S5120x1858.rank)
  reducesTo_S5120x1858_S_d0_1 : S5120x1858.ReducesTo [0, 1] S_

variable [Facts]

def fn {F : FTy → Type} [FloatOps F] (main_arg0 : FVec F S16384x80x8x8 .f32) (main_arg1 : FVec F S5120x1858 .f32) : IVec S_ 1 :=
  let main_v0 : FVec F S16384x80x8x8 .f32 := Host.absf main_arg0
  let main_cst : FVec F S_ .f32 := constant S_ .f32 0x7F800000#32
  let main_v1 : FVec F S16384x80x8x8 .f32 := broadcastInDim S16384x80x8x8 ![] bcast_S_S16384x80x8x8 main_cst
  let main_v2 : IVec S16384x80x8x8 1 := cmpf .olt main_v0 main_v1
  let main_c : IVec S_ 1 := constantI S_ 1 1#1
  let main_v3 : IVec S_ 1 := (fun x v => Host.reduce IntOp.andi x v reducesTo_S16384x80x8x8_S_d0_1_2_3 h_S_) main_v2 main_c
  let main_v4 : FVec F S5120x1858 .f32 := Host.absf main_arg1
  let main_cst_0 : FVec F S_ .f32 := constant S_ .f32 0x7F800000#32
  let main_v5 : FVec F S5120x1858 .f32 := broadcastInDim S5120x1858 ![] bcast_S_S5120x1858 main_cst_0
  let main_v6 : IVec S5120x1858 1 := cmpf .olt main_v4 main_v5
  let main_c_1 : IVec S_ 1 := constantI S_ 1 1#1
  let main_v7 : IVec S_ 1 := (fun x v => Host.reduce IntOp.andi x v reducesTo_S5120x1858_S_d0_1 h_S_) main_v6 main_c_1
  let main_v8 : IVec S_ 1 := andi main_v3 main_v7
  main_v8
-- ==== Kernel.lean ====
abbrev S16384x80x8x8 : Shape := ⟨4, ![16384, 80, 8, 8]⟩
abbrev S5120x1858 : Shape := ⟨2, ![5120, 1858]⟩
abbrev S16384x5120 : Shape := ⟨2, ![16384, 5120]⟩
abbrev S_ : Shape := ⟨0, ![]⟩
abbrev S5120x1920 : Shape := ⟨2, ![5120, 1920]⟩
abbrev S16384x1920 : Shape := ⟨2, ![16384, 1920]⟩
abbrev S256x5120 : Shape := ⟨2, ![256, 5120]⟩
abbrev S256x1920 : Shape := ⟨2, ![256, 1920]⟩
abbrev S16384x1858 : Shape := ⟨2, ![16384, 1858]⟩

abbrev nBuf : Space → Nat
  | .hbm => 9
  | .vmem => 5
  | .smem => 0
  | _ => 0

abbrev bufTy : (tb : Table) → Fin (tcTables nBuf tb) → BufTy
  | .hbm, ⟨0, _⟩ => ⟨S16384x80x8x8, .f32⟩
  | .hbm, ⟨1, _⟩ => ⟨S5120x1858, .f32⟩
  | .hbm, ⟨2, _⟩ => ⟨S16384x5120, .f32⟩
  | .hbm, ⟨3, _⟩ => ⟨S5120x1858, .bf16⟩
  | .hbm, ⟨4, _⟩ => ⟨S_, .i32⟩
  | .hbm, ⟨5, _⟩ => ⟨S_, .bf16⟩
  | .hbm, ⟨6, _⟩ => ⟨S5120x1920, .bf16⟩
  | .hbm, ⟨7, _⟩ => ⟨S16384x1920, .f32⟩
  | .hbm, ⟨8, _⟩ => ⟨S16384x1858, .f32⟩
  | .local _ .vmem, ⟨0, _⟩ => ⟨S256x5120, .f32⟩
  | .local _ .vmem, ⟨1, _⟩ => ⟨S256x5120, .f32⟩
  | .local _ .vmem, ⟨2, _⟩ => ⟨S5120x1920, .bf16⟩
  | .local _ .vmem, ⟨3, _⟩ => ⟨S256x1920, .f32⟩
  | .local _ .vmem, ⟨4, _⟩ => ⟨S256x1920, .f32⟩
  | _, _ => ⟨S16384x80x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x1920 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16384x80x8x8_S16384x5120 : S16384x80x8x8.ShapeCasts S16384x5120
  bitsLt_bf16_f32 : FTy.bits .bf16 < FTy.bits .f32
  pads_S5120x1858_S5120x1920_000_0620 : S5120x1858.Pads (![0, 0] : Fin 2 → Nat) ![0, 62] ![0, 0] S5120x1920
  h_S_ : 0 < S_.numel
  inb_S256x5120_S256x5120_0_0 : ∀ a, (![0, 0] : Fin 2 → Nat) a + S256x5120.size a ≤ S256x5120.size a
  h_S256x5120 : 0 < S256x5120.numel
  shapeCasts_S256x5120_S256x5120 : S256x5120.ShapeCasts S256x5120
  inb_S5120x1920_S5120x1920_0_0 : ∀ a, (![0, 0] : Fin 2 → Nat) a + S5120x1920.size a ≤ S5120x1920.size a
  h_S5120x1920 : 0 < S5120x1920.numel
  shapeCasts_S5120x1920_S5120x1920 : S5120x1920.ShapeCasts S5120x1920
  inb_S256x1920_S256x1920_0_0 : ∀ a, (![0, 0] : Fin 2 → Nat) a + S256x1920.size a ≤ S256x1920.size a
  h_S256x1920 : 0 < S256x1920.numel
  slices_S16384x1920_S16384x1858_0_0 : S16384x1920.Slices ![0, 0] S16384x1858
  dot_S256x5120_S5120x1920_S256x1920_1_0_0_1_n_n_wf : DotDims.WF S256x5120 S5120x1920 S256x1920 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x5120.size a ≤ S16384x5120.size a
  hwx0_0 : ∀ i : grid0.Coords, EltTy.bits .f32 = 32 ∨ (Rect.block (s := S16384x5120) S256x5120.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5120x1920.size a ≤ S5120x1920.size a
  hwx0_1 : ∀ i : grid0.Coords, EltTy.bits .bf16 = 32 ∨ (Rect.block (s := S5120x1920) S5120x1920.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1920.size a ≤ S16384x1920.size a
  hwx0_2 : ∀ i : grid0.Coords, EltTy.bits .f32 = 32 ∨ (Rect.block (s := S16384x1920) S256x1920.size (cc0_transform_2 i) (hinb0_2 i)).WholeWords (EltTy.packing .f32)

variable [Facts₀]

def dot_S256x5120_S5120x1920_S256x1920_1_0_0_1_n_n : DotDims S256x5120 S5120x1920 S256x1920 where
  lhsContracting := [1]
  rhsContracting := [0]
  lhsNonContracting := [0]
  rhsNonContracting := [1]
  lhsBatch := []
  rhsBatch := []
  wf := dot_S256x5120_S5120x1920_S256x1920_1_0_0_1_n_n_wf

abbrev win0_0 : Pipeline.Window sig grid0 :=
  Pipeline.Window.ofSpec (Memref.whole main_v0) S256x5120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S5120x1920.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x1920.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x80x8x8 : Shape := ⟨4, ![16384, 80, 8, 8]⟩
abbrev S5120x1858 : Shape := ⟨2, ![5120, 1858]⟩
abbrev S16384x5120 : Shape := ⟨2, ![16384, 5120]⟩
abbrev S16384x1858 : Shape := ⟨2, ![16384, 1858]⟩

abbrev nBuf : Space → Nat
  | .hbm => 4
  | .vmem => 0
  | .smem => 0
  | _ => 0

abbrev bufTy : (tb : Table) → Fin (tcTables nBuf tb) → BufTy
  | .hbm, ⟨0, _⟩ => ⟨S16384x80x8x8, .f32⟩
  | .hbm, ⟨1, _⟩ => ⟨S5120x1858, .f32⟩
  | .hbm, ⟨2, _⟩ => ⟨S16384x5120, .f32⟩
  | .hbm, ⟨3, _⟩ => ⟨S16384x1858, .f32⟩
  | _, _ => ⟨S16384x80x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S16384x80x8x8_S16384x5120 : S16384x80x8x8.ShapeCasts S16384x5120
  dot_S16384x5120_S5120x1858_S16384x1858_1_0_0_1_n_n_wf : DotDims.WF S16384x5120 S5120x1858 S16384x1858 [1] [0] [0] [1] [] []

variable [Facts₀]

def dot_S16384x5120_S5120x1858_S16384x1858_1_0_0_1_n_n : DotDims S16384x5120 S5120x1858 S16384x1858 where
  lhsContracting := [1]
  rhsContracting := [0]
  lhsNonContracting := [0]
  rhsNonContracting := [1]
  lhsBatch := []
  rhsBatch := []
  wf := dot_S16384x5120_S5120x1858_S16384x1858_1_0_0_1_n_n_wf

class Facts : Prop extends Facts₀ where

variable [Facts]
-- ==== Proof.MatProd.lean ====
/-
  The product of a matrix of rows with a matrix of columns, entry by entry, on the extended reals:
  entry (b, n) of the product of `h` (16384 × 5120) with `w` (5120 × N) is the sum over k < 5120 of
  h[b, k] · w[k, n]. It is stated for N = 1858 and for N = 1920. A 1920-column matrix that agrees with an
  1858-column one on the first 1858 columns has the same product there, whatever its other 62 columns
  hold: entry (b, n) only reads column n, so the two sums agree term by term, and no law of the extended
  reals beyond equality of the terms is used (in particular nothing needs the entries to be finite).
-/
import Idealize.ShloMosaic.PureOps.Ideal
import Idealize.ShloMosaic.Lib.ValueIdx

noncomputable section

namespace Cert.MatProd

open Idealize.ShloMosaic Idealize.ShloMosaic.ValueIdx
open scoped BigOperators

/-- The index shapes: the rows, the two column matrices and the two products. -/
abbrev Rows : Shape := ⟨2, ![16384, 5120]⟩
abbrev Cols : Shape := ⟨2, ![5120, 1858]⟩
abbrev ColsWide : Shape := ⟨2, ![5120, 1920]⟩
abbrev Out : Shape := ⟨2, ![16384, 1858]⟩
abbrev OutWide : Shape := ⟨2, ![16384, 1920]⟩

/-- Entry (b, n) of `h · w`: the sum over k of h[b, k] · w[k, n]. -/
def prod (h : Rows.Idx → EReal) (w : Cols.Idx → EReal) : Out.Idx → EReal :=
  fun i => ∑ k : Fin 5120, h (ix2 (⟨(i 0).val, (i 0).isLt⟩ : Fin 16384) k) * w (ix2 k (⟨(i 1).val, (i 1).isLt⟩ : Fin 1858))

/-- The same with 1920 columns. -/
def prodWide (h : Rows.Idx → EReal) (w : ColsWide.Idx → EReal) : OutWide.Idx → EReal :=
  fun i => ∑ k : Fin 5120, h (ix2 (⟨(i 0).val, (i 0).isLt⟩ : Fin 16384) k) * w (ix2 k (⟨(i 1).val, (i 1).isLt⟩ : Fin 1920))

/-- A column below 1858 is a column below 1920. -/
abbrev widen (n : Fin 1858) : Fin 1920 := ⟨n.val, by have := n.isLt; omega⟩

/-- If the wide matrix agrees with the narrow one on the first 1858 columns, so do the products: entry
    (b, n) reads only column n of the matrix. -/
theorem prodWide_narrow (h : Rows.Idx → EReal) (wide : ColsWide.Idx → EReal) (w : Cols.Idx → EReal)
    (hw : ∀ (k : Fin 5120) (n : Fin 1858), wide (ix2 k (widen n)) = w (ix2 k n)) (b : Fin 16384) (n : Fin 1858) :
    prodWide h wide (ix2 b (widen n)) = prod h w (ix2 b n) := by
  unfold prodWide prod
  refine Finset.sum_congr rfl fun k _ => ?_
  show h (ix2 b k) * wide (ix2 k (widen n)) = h (ix2 b k) * w (ix2 k n)
  rw [hw k n]

end Cert.MatProd

end
-- ==== Proof.BlockProduct.lean ====
/-
  What the kernel body computes from the two blocks it loads, entry by entry, on the extended reals.
  The body narrows the 256 × 5120 block of rows to the shorter float format (the identity on the extended
  reals), leaves both blocks in their shapes, and multiplies them into a zero accumulator. So entry
  (p, q) of what it stores is the sum over k < 5120 of (row block)[p, k] · (column block)[k, q]: the
  accumulator contributes 0, and the contraction over the one contracted axis is re-indexed by k.
-/
import proofs.«146432_j5763846111936_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx
open scoped BigOperators

/-- The matrix product's dimension numbers: axis 1 of the left operand against axis 0 of the right. -/
abbrev D : DotDims S256x5120 S5120x1920 S256x1920 := dot_S256x5120_S5120x1920_S256x1920_1_0_0_1_n_n

/-- The left operand's row coordinate is the result's row. -/
theorem lhs_row (i : S256x1920.Idx) (r : D.contr.Idx) : (D.lhsIdx i r 0).val = (i 0).val := by
  unfold DotDims.lhsIdx
  rw [dif_neg (show ¬(0 : Fin S256x5120.rank) ∈ D.lhsBatch by decide), dif_pos (show (0 : Fin S256x5120.rank) ∈ D.lhsNonContracting by decide)]
  rfl
/-- Its column coordinate is the contracted coordinate. -/
theorem lhs_col (i : S256x1920.Idx) (r : D.contr.Idx) : (D.lhsIdx i r 1).val = (r ⟨0, by decide⟩).val :=
  D.lhsIdx_val_of_single rfl i r
/-- The right operand's row coordinate is the contracted coordinate. -/
theorem rhs_row (i : S256x1920.Idx) (r : D.contr.Idx) : (D.rhsIdx i r 0).val = (r ⟨0, by decide⟩).val :=
  D.rhsIdx_val_of_single rfl i r
/-- Its column coordinate is the result's column. -/
theorem rhs_col (i : S256x1920.Idx) (r : D.contr.Idx) : (D.rhsIdx i r 1).val = (i 1).val := by
  unfold DotDims.rhsIdx
  rw [dif_neg (show ¬(1 : Fin S5120x1920.rank) ∈ D.rhsBatch by decide), dif_pos (show (1 : Fin S5120x1920.rank) ∈ D.rhsNonContracting by decide)]
  rfl

/-- The left operand is read at (the result's row, the contracted coordinate). -/
theorem lhs_at (p : Fin 256) (q : Fin 1920) (k : Fin 5120) :
    D.lhsIdx (ix2 p q) ((contrEquiv1 D 5120 rfl rfl).symm k) = ix2 p k :=
  have hk := contrEquiv1_symm_val D 5120 rfl rfl k
  funext fun a => Fin.ext (by
    match a with
    | ⟨0, _⟩ => exact lhs_row _ _
    | ⟨1, _⟩ => exact (lhs_col _ _).trans hk)

/-- The right operand is read at (the contracted coordinate, the result's column). -/
theorem rhs_at (p : Fin 256) (q : Fin 1920) (k : Fin 5120) :
    D.rhsIdx (ix2 p q) ((contrEquiv1 D 5120 rfl rfl).symm k) = ix2 k q :=
  have hk := contrEquiv1_symm_val D 5120 rfl rfl k
  funext fun a => Fin.ext (by
    match a with
    | ⟨0, _⟩ => exact (rhs_row _ _).trans hk
    | ⟨1, _⟩ => exact rhs_col _ _)

/-- Entry (p, q) of the stored block: the sum over k of (row block)[p, k] · (column block)[k, q]. -/
theorem pay_apply (x0 : Vec Ideal S256x5120 .f32) (x1 : Vec Ideal S5120x1920 .bf16) (p : Fin 256) (q : Fin 1920) :
    k0_pay1 (F := Ideal) x0 x1 (ix2 p q) = ∑ k : Fin 5120, x0 (ix2 p k) * x1 (ix2 k q) := by
  unfold k0_pay1
  refine (Ideal.matmul_constant_zero_apply D none _ _ (ix2 p q)).trans ?_
  rw [← Equiv.sum_comp (contrEquiv1 D 5120 rfl rfl).symm]
  refine Finset.sum_congr rfl fun k _ => ?_
  rw [lhs_at p q k, rhs_at p q k, shapeCast_self, shapeCast_self]
  rfl

end Cert.KernelIdeal.Block

end
-- ==== Proof.KernelArray.lean ====
/-
  The array the grid writes, as one function of the two arrays it reads. The grid has 64 points; point t
  loads rows 256 t … 256 t + 255 of the row matrix (16384 × 5120) and the whole column matrix
  (5120 × 1920), and writes rows 256 t … 256 t + 255 of the result (16384 × 1920). By the block's
  entry-by-entry reading, entry (p, q) of what point t writes is the sum over k of
  rows[256 t + p, k] · cols[k, q], which is entry (256 t + p, q) of the product of the two whole arrays.
  Row r of the result lies in the block of point r / 256, so the 64 blocks cover the result, and the
  result array after the run is the product.
-/
import proofs.«146432_j5763846111936_2_alg».proof.Proof.Gen.KernelIdeal.Frame
import proofs.«146432_j5763846111936_2_alg».proof.Proof.MatProd
import proofs.«146432_j5763846111936_2_alg».proof.Proof.BlockProduct
import Idealize.ShloMosaic.Lib.Pipeline.Value
import Idealize.ShloMosaic.Lib.ValueIdx

noncomputable section

namespace Cert.KernelIdeal.Array

open Cert.KernelIdeal Cert.KernelIdeal.Gen Cert.MatProd
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ)

theorem hz : (![0, 0] : Fin 2 → Nat) = fun _ => 0 := funext fun a => by fin_cases a <;> rfl

/-- The block indices at point t: the row matrix's and the result's blocks are block row t, the column
    matrix's block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the row block at point t is row 256 t + p of the row matrix. -/
theorem rows_block (c : Dev nD) (t : Fin cfg0.N) (p : Fin 256) (k : Fin 5120) (r : Fin 16384) (hr : r.val = t.val * 256 + p.val) :
    (iblk m c 0 t : Vec Ideal S256x5120 .f32) (ix2 p k) = (V m c main_v0 : S16384x5120.Idx → EReal) (ix2 r k) := by
  obtain ⟨e0, e1, -, -, -, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 256 + 1 * p.val = r.val; rw [e0, hr]; omega
  | ⟨1, _⟩ => show win0_0.index t (1 : Fin 2) * 5120 + 1 * k.val = k.val; rw [e1]; omega

/-- The column block at every point is the whole column matrix. -/
theorem cols_block (c : Dev nD) (t : Fin cfg0.N) (k : Fin 5120) (q : Fin 1920) :
    (iblk m c 1 t : Vec Ideal S5120x1920 .bf16) (ix2 k q) = (V m c main_v2 : S5120x1920.Idx → EReal) (ix2 k q) := by
  obtain ⟨-, -, e2, e3, -, -⟩ := idx_facts t
  unfold iblk
  rw [View.read_apply]
  show V m c main_v2 _ = V m c main_v2 _
  refine congrArg (V m c main_v2) (funext fun a => Fin.ext ?_)
  match a with
  | ⟨0, _⟩ => show win0_1.index t (0 : Fin 2) * 5120 + 1 * k.val = k.val; rw [e2]; omega
  | ⟨1, _⟩ => show win0_1.index t (1 : Fin 2) * 1920 + 1 * q.val = q.val; rw [e3]; omega

/-- Entry j of what the body leaves at point t is entry i of the product of the two whole arrays, when i is
    j moved down 256 t rows. -/
theorem stored_entry (c : Dev nD) (t : Fin cfg0.N) (j : S256x1920.Idx) (i : S16384x1920.Idx)
    (h0 : (i 0).val = t.val * 256 + (j 0).val) (h1 : (i 1).val = (j 1).val) :
    k0_pay1 (F := Ideal) (iblk m c 0 t) (iblk m c 1 t) j = prodWide (V m c main_v0) (V m c main_v2) i := by
  obtain ⟨p, q, rfl⟩ : ∃ (p : Fin 256) (q : Fin 1920), j = ix2 p q := ⟨j 0, j 1, eq_ix2 j⟩
  refine (Cert.KernelIdeal.Block.pay_apply (iblk m c 0 t) (iblk m c 1 t) p q).trans ?_
  unfold prodWide
  refine Finset.sum_congr rfl fun k _ => ?_
  rw [rows_block m c t p k ⟨(i 0).val, (i 0).isLt⟩ h0, cols_block m c t k q]
  have hq : (⟨(i 1).val, (i 1).isLt⟩ : Fin 1920) = q := Fin.ext h1
  rw [hq]

/-- What point t writes back is block t of the product of the two arrays the region finds. -/
theorem flushed_eq (c : Dev nD) (t : Fin cfg0.N) :
    (dats m 0 c).flushed 2 t = ((cfg0.win 2).blk t).view.read (Elt Ideal) (prodWide (V m c main_v0) (V m c main_v2)) := by
  show (cfg0.win 2).cut (grid0.coords t) ((dats m 0 c).after 2 t) = _
  rw [after0_2]
  unfold out0_2
  rw [View.canon_unit_zero hz]
  simp only [View.ld_unit_zero (S := S256x5120) hz, View.ld_unit_zero (S := S5120x1920) hz]
  obtain ⟨-, -, -, -, e4, e5⟩ := idx_facts t
  funext j
  show k0_pay1 (F := Ideal) (iblk m c 0 t) (iblk m c 1 t) j = prodWide (V m c main_v0) (V m c main_v2) (((cfg0.win 2).blk t).view.emb j)
  refine stored_entry m c t j (((cfg0.win 2).blk t).view.emb j) ?_ ?_
  · show win0_2.index t (0 : Fin 2) * 256 + 1 * (j 0).val = t.val * 256 + (j 0).val; rw [e4]; omega
  · show win0_2.index t (1 : Fin 2) * 1920 + 1 * (j 1).val = (j 1).val; rw [e5]; omega

/-- An index of the result is in point t's block iff each coordinate is in the block's range on its axis. -/
theorem mem_blk (t : Fin cfg0.N) (i : S16384x1920.Idx) :
    i ∈ ((cfg0.win 2).blk t).view.set ↔ ∀ a : Fin 2, win0_2.index t a * S256x1920.size a ≤ (i a).val ∧ (i a).val < win0_2.index t a * S256x1920.size a + S256x1920.size a := by
  show i ∈ ((View.whole main_v3).slice (win0_2.rect t)).set ↔ _
  rw [View.set_slice_whole, Rect.mem_set_unit]
  exact Iff.rfl

/-- Every index of the result is in the block of the point its row falls in. -/
theorem cover (i : S16384x1920.Idx) : ∃ t : Fin cfg0.N, (cfg0.win 2).flush t = true ∧ i ∈ ((cfg0.win 2).blk t).view.set := by
  have hi0 : (i 0).val < 16384 := (i 0).isLt
  have hi1 : (i 1).val < 1920 := (i 1).isLt
  obtain ⟨t, ht⟩ : ∃ t : Fin cfg0.N, t.val = (i 0).val / 256 :=
    ⟨⟨(i 0).val / 256, lt_of_lt_of_eq (by omega : (i 0).val / 256 < 64) N_0.symm⟩, rfl⟩
  obtain ⟨-, -, -, -, e4, e5⟩ := idx_facts t
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; rw [e4, ht]; omega
  | ⟨1, _⟩ => show win0_2.index t (1 : Fin 2) * 1920 ≤ (i 1).val ∧ (i 1).val < win0_2.index t (1 : Fin 2) * 1920 + 1920; rw [e5]; omega

/-- The result array after the run is the product of the two arrays the region finds. -/
theorem final (c : Dev nD) : (dats m 0 c).arrAt 2 cfg0.N = prodWide (V m c main_v0) (V m c main_v2) :=
  (dats m 0 c).arrAt_eq_of_cover 2 (prodWide (V m c main_v0) (V m c main_v2)) (fun t _ => flushed_eq m c t) (cover)

end Cert.KernelIdeal.Array

end
-- ==== Proof.KernelHost.lean ====
/-
  The host lines around the grid, read as values on the extended reals.
  Before the grid: the row matrix the grid reads is the 4-axis argument reshaped to 16384 × 5120; the
  column matrix it reads is the 5120 × 1858 argument narrowed to the shorter float format (the identity
  on the extended reals) and padded on the right with 62 columns of a constant, so at a column below 1858
  it holds the argument's entry.
  After the grid: the program's result is the first 1858 columns of the 16384 × 1920 array the grid wrote.
-/
import proofs.«146432_j5763846111936_2_alg».proof.Proof.Gen.KernelIdeal.Frame
import proofs.«146432_j5763846111936_2_alg».proof.Proof.MatProd
import Idealize.ShloMosaic.Lib.Pipeline.Value
import Idealize.ShloMosaic.Lib.KernelVsHost
import Idealize.ShloMosaic.Lib.StableHlo.Run
import Idealize.ShloMosaic.Lib.ValueIdx

noncomputable section

namespace Cert.KernelIdeal.Host

open Cert.KernelIdeal Cert.KernelIdeal.Gen Cert.MatProd
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ)

/-- The row matrix the grid reads is the first argument reshaped. -/
theorem rows_eq (c : Dev nD) (h : S16384x80x8x8.ShapeCasts S16384x5120) :
    (V m c main_v0 : S16384x5120.Idx → EReal) = shapeCast S16384x5120 (m ((c : Thread nD τ).loc main_arg0)) h := by
  dsimp only [V, V0]
  simp only [hostOps0, hostOps0_1, List.flatten_cons, List.flatten_nil, List.append_nil, List.cons_append, List.nil_append]
  after_results
  rfl

/-- The column matrix the grid reads holds the second argument's entry at every column below 1858. -/
theorem cols_eq (c : Dev nD) (k : Fin 5120) (n : Fin 1858) :
    (V m c main_v2 : S5120x1920.Idx → EReal) (ix2 k (widen n)) = (m ((c : Thread nD τ).loc main_arg1) : S5120x1858.Idx → EReal) (ix2 k n) := by
  dsimp only [V, V0]
  simp only [hostOps0, hostOps0_1, List.flatten_cons, List.flatten_nil, List.append_nil, List.cons_append, List.nil_append]
  after_results
  show pad S5120x1920 ![0, 0] ![0, 62] ![0, 0] (truncf (F := Ideal) .bf16 (m ((c : Thread nD τ).loc main_arg1)) bitsLt_bf16_f32)
      (sitofp (F := Ideal) .bf16 (constantI S_ 32 0#32)) pads_S5120x1858_S5120x1920_000_0620 h_S_ (ix2 k (widen n)) = _
  refine (pad_apply_of_inside _ _ _ _ _ _ _ (ix2 k (widen n)) (ix2 k n) fun a => ?_).trans rfl
  match a with
  | ⟨0, _⟩ => show k.val = 0 + k.val * (0 + 1); omega
  | ⟨1, _⟩ => show n.val = 0 + n.val * (0 + 1); omega

/-- The program's result is the first 1858 columns of the array the grid wrote. -/
theorem result_eq (c : Dev nD) (h : S16384x1920.Slices ![0, 0] S16384x1858) :
    Pipeline.afterTail₀ cfgs (dats m) 0 (V0 m) [hostOps1] c main_v4
      = extractStridedSlice S16384x1858 ![0, 0] ((dats m 0 c).arrAt 2 cfg0.N) h := by
  unfold Pipeline.afterTail₀
  show StableHlo.after hostOps1 _ (Proc.devRef .tc main_v4) = _
  after_results
  refine congrArg (fun A : S16384x1920.Idx → EReal => extractStridedSlice S16384x1858 ![0, 0] A h) ?_
  exact Pipeline.withArrays_arr spec0 launch0.win.arr_inj c _ _ 2

end Cert.KernelIdeal.Host

end
-- ==== Proof.KernelValue.lean ====
/-
  The kernel program's result as one function of its two arguments, on the extended reals.
  The grid leaves the product of the row matrix (the first argument reshaped to 16384 × 5120) with the
  widened column matrix (5120 × 1920); the program's result is its first 1858 columns. Entry (b, n) of the
  result, n < 1858, is therefore entry (b, n) of the wide product, which reads only column n of the widened
  matrix, where it holds the second argument's entry: the result is the product of the reshaped first
  argument with the second argument. The run's other conjuncts say the two arguments end unchanged.
-/
import proofs.«146432_j5763846111936_2_alg».proof.Proof.Gen.KernelIdeal.Frame
import proofs.«146432_j5763846111936_2_alg».proof.Proof.MatProd
import proofs.«146432_j5763846111936_2_alg».proof.Proof.KernelArray
import proofs.«146432_j5763846111936_2_alg».proof.Proof.KernelHost
import Idealize.ShloMosaic.Lib.Pipeline.Value
import Idealize.ShloMosaic.Lib.ValueIdx

noncomputable section

namespace Cert.KernelIdeal.Hand

open Cert.KernelIdeal Cert.KernelIdeal.Gen Cert.MatProd
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The program's result is the product of the reshaped first argument with the second argument. -/
theorem value (c : Dev nD) (h : S16384x80x8x8.ShapeCasts S16384x5120) :
    Pipeline.afterTail₀ cfgs (dats m) 0 (V0 m) [hostOps1] c main_v4
      = prod (shapeCast S16384x5120 (m ((c : Thread nD τ).loc main_arg0)) h) (m ((c : Thread nD τ).loc main_arg1)) := by
  rw [Cert.KernelIdeal.Host.result_eq m c slices_S16384x1920_S16384x1858_0_0, Cert.KernelIdeal.Array.final m c]
  funext i
  obtain ⟨b, n, rfl⟩ : ∃ (b : Fin 16384) (n : Fin 1858), i = ix2 b n := ⟨i 0, i 1, eq_ix2 i⟩
  refine (extractStridedSlice_apply _ _ _ (ix2 b n) (ix2 b (widen n)) fun a => ?_).trans ?_
  · match a with
    | ⟨0, _⟩ => show b.val = 0 + b.val; omega
    | ⟨1, _⟩ => show n.val = 0 + n.val; omega
  · rw [prodWide_narrow _ _ (m ((c : Thread nD τ).loc main_arg1)) (fun k n => Cert.KernelIdeal.Host.cols_eq m c k n) b n,
      Cert.KernelIdeal.Host.rows_eq m c h]

/-- Every weakly fair execution of the program terminates with the result at the product of the reshaped first
    argument with the second, and the two arguments as they were. -/
theorem run (h : S16384x80x8x8.ShapeCasts S16384x5120) :
    θ_run defs (onTc (τ := τ) (main (F := Ideal))) ⟨m, fun _ => 0, ρ⟩ fun r => ∀ c : Dev nD,
      r.2.mem ((c : Thread nD τ).loc main_v4)
        = prod (shapeCast S16384x5120 (m ((c : Thread nD τ).loc main_arg0)) h) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ hr c =>
      ⟨((hr c).2 main_v4 (Pipeline.mem_restRefs_of main_v4 (by decide) (by decide))).trans (value m c h),
       ((hr c).2 main_arg0 (Pipeline.mem_restRefs_of main_arg0 (by decide) (by decide))).trans (W_main_arg0 m (dats m) c),
       ((hr c).2 main_arg1 (Pipeline.mem_restRefs_of main_arg1 (by decide) (by decide))).trans (W_main_arg1 m (dats m) c)⟩)
    (run_main m ρ)

end Cert.KernelIdeal.Hand

end
-- ==== Proof.RefValue.lean ====
/-
  The reference program's result, on the extended reals, is the product of the reshaped first argument
  (16384 × 5120) with the second argument (5120 × 1858): its one contraction, read at an index (b, n), is
  the sum over k of the reshaped argument at (b, k) times the second argument at (k, n), which is the
  product's definition with the same summation index.
-/
import proofs.«146432_j5763846111936_2_alg».proof.Proof.Gen.ReferenceIdeal.Read
import proofs.«146432_j5763846111936_2_alg».proof.Proof.MatProd

noncomputable section

namespace Cert.ReferenceIdeal.RefValue

open Cert.ReferenceIdeal Cert.ReferenceIdeal.Gen Cert.ReferenceIdeal.Read Cert.MatProd
open Idealize.ShloMosaic Idealize.ShloMosaic.ValueIdx
open scoped BigOperators

/-- The reference's result is the product of the reshaped first argument with the second. -/
theorem result_eq (x0 : (⟨S16384x80x8x8, .f32⟩ : BufTy).Contents (Elt Ideal)) (x1 : (⟨S5120x1858, .f32⟩ : BufTy).Contents (Elt Ideal))
    (h : S16384x80x8x8.ShapeCasts S16384x5120) :
    val_main_v1 (F := Ideal) x0 x1 = prod (shapeCast S16384x5120 x0 h) x1 := by
  funext i
  rw [val_main_v1_apply]
  unfold prod
  refine Finset.sum_congr rfl fun k _ => ?_
  have el : lidx_main_v1 i k = ix2 (⟨(i 0).val, (i 0).isLt⟩ : Fin 16384) k :=
    funext fun a => Fin.ext (by match a with | ⟨0, _⟩ => rfl | ⟨1, _⟩ => rfl)
  have er : ridx_main_v1 i k = ix2 k (⟨(i 1).val, (i 1).isLt⟩ : Fin 1858) :=
    funext fun a => Fin.ext (by match a with | ⟨0, _⟩ => rfl | ⟨1, _⟩ => rfl)
  rw [el, er]
  rfl

end Cert.ReferenceIdeal.RefValue

end
-- ==== Proof.lean ====
/-
  The kernel program and its reference compute the same array on the extended reals.

  Both reshape the first argument x (16384 × 80 × 8 × 8) to a matrix h of 16384 rows of 5120 entries, in the
  same row-major order. The reference contracts h with the second argument w (5120 × 1858): entry (b, n) of
  its result is the sum over k < 5120 of h[b, k] · w[k, n].

  The kernel program narrows w to the shorter float format (the identity on the extended reals), pads it on
  the right with 62 columns of a constant to 5120 × 1920, and runs a grid of 64 points; point t multiplies rows
  256 t … 256 t + 255 of h (narrowed likewise) by the whole padded matrix into a zero accumulator and writes
  rows 256 t … 256 t + 255 of a 16384 × 1920 array. The 64 row blocks tile that array, so it ends holding the
  product of h with the padded matrix; the program's result is its first 1858 columns. Entry (b, n) of a
  product reads column n of the right factor only, and on the first 1858 columns the padded matrix is w: so
  entry (b, n) of the kernel's result is the same sum over k of h[b, k] · w[k, n], with the terms in the same
  order. Nothing in the argument moves a factor across a sum or cancels, so the finiteness of the inputs is
  never used; the accumulator's zero is the one float literal read (0 + s = s).

  Each of the three programs terminates with its arguments unchanged; the kernel program on the extended
  reals is the kernel program's own text read there, so there is no rewrite between the two to justify.
-/
import proofs.«146432_j5763846111936_2_alg».proof.Defs
import proofs.«146432_j5763846111936_2_alg».proof.Proof.Gen.Kernel
import proofs.«146432_j5763846111936_2_alg».proof.Proof.Gen.Kernel.Frame
import proofs.«146432_j5763846111936_2_alg».proof.Proof.Gen.KernelIdeal
import proofs.«146432_j5763846111936_2_alg».proof.Proof.Gen.KernelIdeal.Frame
import proofs.«146432_j5763846111936_2_alg».proof.Proof.Gen.ReferenceIdeal
import proofs.«146432_j5763846111936_2_alg».proof.Proof.Gen.ReferenceIdeal.Run
import proofs.«146432_j5763846111936_2_alg».proof.Proof.Gen.ReferenceIdeal.Read
import proofs.«146432_j5763846111936_2_alg».proof.Proof.Gen.Pre_finite_inputs
import proofs.«146432_j5763846111936_2_alg».proof.Proof.KernelValue
import proofs.«146432_j5763846111936_2_alg».proof.Proof.RefValue
import Idealize.ShloMosaic.Adequacy
import Idealize.ShloMosaic.Init

noncomputable section

namespace Cert.Proof

open Idealize.ShloMosaic Idealize.SL.Sem

/-- The kernel program on machine words terminates with its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run, with the result's conjunct dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments, the kernel program's result and the reference's are both the
    product of the reshaped first argument with the second. -/
theorem algebraic : Cert.algebraic_KernelIdeal_ReferenceIdeal := by
  intro m ρ m' ρ' _ hagree
  refine ⟨_, Cert.KernelIdeal.Hand.run m ρ Cert.KernelIdeal.Gen.shapeCasts_S16384x80x8x8_S16384x5120, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq,
    Cert.ReferenceIdeal.RefValue.result_eq _ _ Cert.ReferenceIdeal.Gen.shapeCasts_S16384x80x8x8_S16384x5120,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
